-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  main_v3
-- ==== Kernel.lean ====
abbrev S4096x8192 : Shape := ⟨2, ![4096, 8192]⟩
abbrev S4096x64x128 : Shape := ⟨3, ![4096, 64, 128]⟩
abbrev S128x64x128 : Shape := ⟨3, ![128, 64, 128]⟩
abbrev S128x64 : Shape := ⟨2, ![128, 64]⟩
abbrev S128x64x1 : Shape := ⟨3, ![128, 64, 1]⟩

abbrev nBuf : Space → Nat
  | .hbm => 4
  | .vmem => 4
  | .smem => 0
  | _ => 0

abbrev bufTy : (tb : Table) → Fin (tcTables nBuf tb) → BufTy
  | .hbm, ⟨0, _⟩ => ⟨S4096x8192, .f32⟩
  | .hbm, ⟨1, _⟩ => ⟨S4096x64x128, .f32⟩
  | .hbm, ⟨2, _⟩ => ⟨S4096x64x128, .f32⟩
  | .hbm, ⟨3, _⟩ => ⟨S4096x8192, .f32⟩
  | .local _ .vmem, ⟨0, _⟩ => ⟨S128x64x128, .f32⟩
  | .local _ .vmem, ⟨1, _⟩ => ⟨S128x64x128, .f32⟩
  | .local _ .vmem, ⟨2, _⟩ => ⟨S128x64x128, .f32⟩
  | .local _ .vmem, ⟨3, _⟩ => ⟨S128x64x128, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x8192_S4096x64x128 : S4096x8192.ShapeCasts S4096x64x128
  inb_S128x64x128_S128x64x128_0_0_0 : ∀ a, (![0, 0, 0] : Fin 3 → Nat) a + S128x64x128.size a ≤ S128x64x128.size a
  h_S128x64x128 : 0 < S128x64x128.numel
  shapeCasts_S128x64x128_S128x64x128 : S128x64x128.ShapeCasts S128x64x128
  reduces_S128x64x128_S128x64 : S128x64x128.Reduces [2] S128x64
  shapeCasts_S128x64_S128x64x1 : S128x64.ShapeCasts S128x64x1
  broadcasts_S128x64x1_S128x64x128 : S128x64x1.Broadcasts S128x64x128
  shapeCasts_S4096x64x128_S4096x8192 : S4096x64x128.ShapeCasts S4096x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S4096x64x128.size a
  hwx0_0 : ∀ i : grid0.Coords, EltTy.bits .f32 = 32 ∨ (Rect.block (s := S4096x64x128) S128x64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64x128.size a ≤ S4096x64x128.size a
  hwx0_1 : ∀ i : grid0.Coords, EltTy.bits .f32 = 32 ∨ (Rect.block (s := S4096x64x128) S128x64x128.size (cc0_transform_1 i) (hinb0_1 i)).WholeWords (EltTy.packing .f32)

variable [Facts₀]

abbrev win0_0 : Pipeline.Window sig grid0 :=
  Pipeline.Window.ofSpec (Memref.whole main_v0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x64x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S4096x8192 : Shape := ⟨2, ![4096, 8192]⟩
abbrev S4096x64x128 : Shape := ⟨3, ![4096, 64, 128]⟩
abbrev S_ : Shape := ⟨0, ![]⟩
abbrev S4096x64 : Shape := ⟨2, ![4096, 64]⟩
abbrev S4096x64x1 : Shape := ⟨3, ![4096, 64, 1]⟩

abbrev nBuf : Space → Nat
  | .hbm => 11
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x64x128, .f32⟩
  | .hbm, ⟨2, _⟩ => ⟨S_, .f32⟩
  | .hbm, ⟨3, _⟩ => ⟨S4096x64, .f32⟩
  | .hbm, ⟨4, _⟩ => ⟨S4096x64x1, .f32⟩
  | .hbm, ⟨5, _⟩ => ⟨S4096x64x128, .f32⟩
  | .hbm, ⟨6, _⟩ => ⟨S4096x64x128, .f32⟩
  | .hbm, ⟨7, _⟩ => ⟨S_, .f32⟩
  | .hbm, ⟨8, _⟩ => ⟨S4096x64x128, .f32⟩
  | .hbm, ⟨9, _⟩ => ⟨S4096x64x128, .f32⟩
  | .hbm, ⟨10, _⟩ => ⟨S4096x8192, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]

class Facts₀ : Prop where
  shapeCasts_S4096x8192_S4096x64x128 : S4096x8192.ShapeCasts S4096x64x128
  reducesTo_S4096x64x128_S4096x64_d2 : S4096x64x128.ReducesTo [2] S4096x64
  h_S_ : 0 < S_.numel
  bcast_S4096x64_S4096x64x1_0_1 : S4096x64.BroadcastsInDim S4096x64x1 (![0, 1] : Fin 2 → Fin S4096x64x1.rank)
  bcast_S4096x64x1_S4096x64x128_0_1_2 : S4096x64x1.BroadcastsInDim S4096x64x128 (![0, 1, 2] : Fin 3 → Fin S4096x64x128.rank)
  bcast_S_S4096x64x128 : S_.BroadcastsInDim S4096x64x128 (![] : Fin 0 → Fin S4096x64x128.rank)
  shapeCasts_S4096x64x128_S4096x8192 : S4096x64x128.ShapeCasts S4096x8192

variable [Facts₀]

class Facts : Prop extends Facts₀ where

variable [Facts]
-- ==== Proof.Inhibit.lean ====
/-
  Lateral inhibition inside groups of neurons, as one function of the spike array.

  The spikes of a batch of rows are laid out [row, group, neuron], 64 groups of 128 neurons a row. Every neuron is
  inhibited by the OTHER neurons of its group: its input current is the group's total minus its own spike, scaled by the
  inhibition strength 1/2,

      inhibit X (row, g, n) = (Σ_k X (row, g, k) − X (row, g, n)) · ½ .

  Both programs compute exactly this expression on the extended reals, so no algebraic law (and no finiteness) is needed to
  join them: what remains is to read each program's operations at an index.
-/
import Idealize.ShloMosaic.PureOps.Ideal
import Idealize.ShloMosaic.Lib.ValueIdx

noncomputable section

namespace Cert.Inhibit

open Idealize.ShloMosaic Idealize.ShloMosaic.ValueIdx

/-- The inhibition strength: the f32 word of 0.5, read as an extended real. Both programs carry this same word, so
    its value is never needed. -/
def strength : EReal := Ideal.ofBits .f32 0x3F000000#32

/-- Rows × 64 groups × 128 neurons. -/
abbrev Spikes (rows : Nat) : Shape := ⟨3, ![rows, 64, 128]⟩

/-- The inhibitory current: at (row, g, n) the sum of the spikes of group g of that row, minus the neuron's own spike,
    times the inhibition strength. -/
def inhibit {rows : Nat} (X : (Spikes rows).Idx → EReal) : (Spikes rows).Idx → EReal :=
  fun i => ((∑ k : Fin 128, X (ix3 (n0 := rows) (n1 := 64) (n2 := 128) (i 0) (i 1) k)) - X i) * strength

/-- The current at an index given by its coordinates. -/
theorem inhibit_apply {rows : Nat} (X : (Spikes rows).Idx → EReal) (p : Fin rows) (g : Fin 64) (n : Fin 128) :
    inhibit X (ix3 p g n) = ((∑ k : Fin 128, X (ix3 p g k)) - X (ix3 p g n)) * strength := rfl

end Cert.Inhibit

end
-- ==== Proof.LibLaneKeepdims.lean ====
/-
  A sum over the last axis of a rank-3 array [a, b, c] kept as a unit axis (jnp.sum(x, axis=-1, keepdims=True)) and
  spread back over that axis, read one operation at a time at an index given by its coordinates, over generic extents:

  * the vector unit's add-reduction over axis 2 at the exact extended reals is the sum over the last coordinate;
  * the shape cast [a, b] → [a, b, 1] reads (p, q, 0) at (p, q);
  * the broadcast [a, b, 1] → [a, b, c] reads (p, q, r) at (p, q, 0).

  Together: the spread group sum at (p, q, r) is the sum over k of the array at (p, q, k).
-/
import Idealize.ShloMosaic.PureOps.Ideal.Laws
import Idealize.ShloMosaic.Lib.ValueIdx
import Idealize.ShloMosaic.Lib.Pipeline.Value

noncomputable section

namespace Cert.LaneKeepdims

open Idealize.ShloMosaic Idealize.ShloMosaic.ValueIdx

variable {a b c : Nat}

/-- The add-reduction over the last axis of an [a, b, c] array, at the exact extended reals, read at (p, q): the sum over
    the last coordinate k of the array at (p, q, k). -/
theorem laneSum_apply (v : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ v acc h hφ hacc (ix2 p q) = ∑ k : Fin c, v (ix3 p q k) := by
  refine (Ideal.multiReduction_add_single v acc h hφ hacc (ix2 p q)).trans ?_
  refine Finset.sum_congr rfl fun k _ => congrArg v (funext fun d => Fin.ext ?_)
  match d with
  | ⟨0, _⟩ => rfl
  | ⟨1, _⟩ => rfl
  | ⟨2, _⟩ => rfl

/-- A reduced [a, b] array viewed with a unit last axis reads (p, q, 0) at (p, q). -/
theorem keepLane_apply {α : Type} (z : (⟨2, ![a, b]⟩ : Shape).Idx → α)
    (h : (⟨2, ![a, b]⟩ : Shape).ShapeCasts ⟨3, ![a, b, 1]⟩) (p : Fin a) (q : Fin b) (o : Fin 1) :
    shapeCast ⟨3, ![a, b, 1]⟩ z h (ix3 p q o) = z (ix2 p q) := by
  refine shapeCast_apply z h (ix3 p q o) (ix2 p q) ?_
  rw [Shape.rowMajor_val_two, Shape.rowMajor_val_three]
  have ho : o.val = 0 := by have := o.isLt; omega
  show p.val * b + q.val = (p.val * b + q.val) * 1 + o.val
  omega

/-- A column of group values [a, b, 1] spread along the last axis reads (p, q, r) at (p, q, 0). -/
theorem spreadLane_apply {α : Type} (y : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ y h (ix3 p q r) = y (ix3 p q (0 : Fin 1)) := by
  refine broadcastTo_apply y h (ix3 p q r) (ix3 p q (0 : Fin 1)) fun d => ?_
  match d with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show (0 : Nat) = if (1 : Nat) = 1 then 0 else r.val
    rw [if_pos rfl]

/-- The three together: the kept-and-spread lane sum of an [a, b, c] array at (p, q, r) is the sum over k of the array at
    (p, q, k). -/
theorem spreadLaneSum_apply (v : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ)
    (hk : (⟨2, ![a, b]⟩ : Shape).ShapeCasts ⟨3, ![a, b, 1]⟩)
    (hs : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ (multiReduction .add [2] ⟨2, ![a, b]⟩ v acc h hφ hacc) hk) hs (ix3 p q r)
      = ∑ k : Fin c, v (ix3 p q k) :=
  (spreadLane_apply _ hs p q r).trans ((keepLane_apply _ hk p q 0).trans (laneSum_apply v acc h hφ hacc p q))

end Cert.LaneKeepdims

end
-- ==== Proof.KernelBlock.lean ====
/-
  What the kernel body stores, as a function of the block it loaded.

  The body loads a whole block of 128 rows [128, 64, 128], sums it over the last axis (kept as a unit axis and spread
  back), subtracts the block and scales by ½. Read at (p, g, n): the spread sum is Σ_k x (p, g, k) — the vector unit's
  add-reduction starts from its neutral word, so nothing is added —, so the stored block is `inhibit` of the loaded one.
-/
import proofs.«107259_j68161130987768_2_alg».proof.Proof.Gen.KernelIdeal.Skeleton
import proofs.«107259_j68161130987768_2_alg».proof.Proof.Inhibit
import proofs.«107259_j68161130987768_2_alg».proof.Proof.LibLaneKeepdims

noncomputable section

namespace Cert.KernelIdeal.Block

open Cert.KernelIdeal Cert.KernelIdeal.Gen
open Idealize.ShloMosaic Idealize.ShloMosaic.ValueIdx Cert.Inhibit

/-- The value the body stores is the inhibitory current of the 128 rows it loaded. -/
theorem pay_eq (x0 : Vec Ideal S128x64x128 .f32) : k0_pay1 (F := Ideal) x0 = inhibit (rows := 128) x0 := by
  funext j
  obtain ⟨p, g, n, rfl⟩ : ∃ (p : Fin 128) (g : Fin 64) (n : Fin 128), j = ix3 p g n := ⟨j 0, j 1, j 2, eq_ix3 j⟩
  rw [inhibit_apply]
  unfold k0_pay1
  dsimp only
  rw [mulf_apply, subf_apply, broadcast_apply, shapeCast_self]
  refine congrArg (fun s => (s - x0 (ix3 p g n)) * strength) ?_
  exact Cert.LaneKeepdims.spreadLaneSum_apply x0 _ _ _ _ _ _ p g n

end Cert.KernelIdeal.Block

end
-- ==== Proof.KernelArray.lean ====
/-
  The kernel program's result as one function of its argument.

  The program regroups its [4096, 8192] argument as [4096, 64, 128], runs the body once per block of 128 rows (32 grid
  points; block t is rows 128·t … 128·t + 127, whole in the group and neuron axes) and flattens the output array. A group
  lies inside one row, so the current of block t of the array only needs block t: what point t writes back is block t
  of `inhibit` of the regrouped argument; the 32 blocks cover the array (row r is in block r / 128), so the output
  array ends holding `inhibit` of the regrouped argument, and the program's result is its flattening.
-/
import proofs.«107259_j68161130987768_2_alg».proof.Proof.Gen.KernelIdeal.Frame
import proofs.«107259_j68161130987768_2_alg».proof.Proof.KernelBlock
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Cert.Inhibit
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0, 0] : Fin 3 → Nat) = fun _ => 0 := funext fun a => by fin_cases a <;> rfl

/-- The regrouped argument [4096, 64, 128]: what the region finds in its input array. -/
abbrev spikes (c : Dev nD) : S4096x64x128.Idx → EReal :=
  shapeCast S4096x64x128 (m ((c : Thread nD τ).loc main_arg0)) Gen.shapeCasts_S4096x8192_S4096x64x128

/-- The host line before the region writes the regrouped argument into the input window's array. -/
theorem V_main_v0 (c : Dev nD) : (V m c main_v0 : S4096x64x128.Idx → EReal) = spikes m c := by
  show StableHlo.after hostOps0 (fun b => m (c, b)) (Proc.devRef .tc main_v0) = _
  after_results
  rfl

/-- The printed index maps over the 32 grid points: each window's block at point t is block t along the rows and the
    whole extent of the group and neuron axes. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The input block at point t, entry (p, g, n), is the region's input array at row 128·t + p. -/
theorem iblk_apply (c : Dev nD) (t : Fin cfg0.N) (y : S128x64x128.Idx) (i : S4096x64x128.Idx)
    (h0 : (i 0).val = t.val * 128 + (y 0).val) (h1 : (i 1).val = (y 1).val) (h2 : (i 2).val = (y 2).val) :
    iblk m c 0 t y = (V m c main_v0 : S4096x64x128.Idx → EReal) i := by
  obtain ⟨e0, e1, e2, -, -, -⟩ := idx_facts t
  unfold iblk
  rw [View.read_apply]
  show (V m c main_v0 : S4096x64x128.Idx → EReal) (((cfg0.win 0).blk t).view.emb y) = (V m c main_v0 : S4096x64x128.Idx → EReal) i
  refine congrArg (V m c main_v0 : S4096x64x128.Idx → EReal) (funext fun a => Fin.ext ?_)
  match a with
  | ⟨0, _⟩ => show win0_0.index t (0 : Fin 3) * 128 + 1 * (y 0).val = (i 0).val; rw [e0, h0]; omega
  | ⟨1, _⟩ => show win0_0.index t (1 : Fin 3) * 64 + 1 * (y 1).val = (i 1).val; rw [e1, h1]; omega
  | ⟨2, _⟩ => show win0_0.index t (2 : Fin 3) * 128 + 1 * (y 2).val = (i 2).val; rw [e2, h2]; omega

/-- The current of 128 rows, read where a block sits in the array: if the block x is rows 128·t … of the array X, then
    the block's current at (p, g, n) is the array's current at (128·t + p, g, n) — a group never leaves its row. -/
theorem inhibit_block (x : S128x64x128.Idx → EReal) (X : S4096x64x128.Idx → EReal) (j : S128x64x128.Idx) (i : S4096x64x128.Idx)
    (hrow : ∀ k : Fin 128, x (ix3 (n0 := 128) (n1 := 64) (n2 := 128) (j 0) (j 1) k) = X (ix3 (n0 := 4096) (n1 := 64) (n2 := 128) (i 0) (i 1) k))
    (hself : x j = X i) :
    inhibit (rows := 128) x j = inhibit (rows := 4096) X i := by
  unfold inhibit
  rw [hself, Finset.sum_congr rfl fun k _ => hrow k]

/-- WHAT POINT t WRITES BACK is block t of the current of the region's input array. -/
theorem flushed_eq (c : Dev nD) (t : Fin cfg0.N) :
    (dats m 0 c).flushed 1 t = ((cfg0.win 1).blk t).view.read (Elt Ideal) (inhibit (rows := 4096) (V m c main_v0 : S4096x64x128.Idx → EReal)) := by
  show (cfg0.win 1).cut (grid0.coords t) ((dats m 0 c).after 1 t) = _
  rw [after0_1]
  unfold out0_1
  rw [View.canon_unit_zero hz]
  simp only [View.ld_unit_zero (S := S128x64x128) hz]
  rw [Cert.KernelIdeal.Block.pay_eq]
  obtain ⟨-, -, -, e0, e1, e2⟩ := idx_facts t
  refine funext fun (j : S128x64x128.Idx) => ?_
  show inhibit (rows := 128) (iblk m c 0 t) j = inhibit (rows := 4096) (V m c main_v0 : S4096x64x128.Idx → EReal) (((cfg0.win 1).blk t).view.emb j)
  have c0 : ((((cfg0.win 1).blk t).view.emb j : S4096x64x128.Idx) 0).val = t.val * 128 + (j 0).val := by
    show win0_1.index t (0 : Fin 3) * 128 + 1 * (j 0).val = _; rw [e0]; omega
  have c1 : ((((cfg0.win 1).blk t).view.emb j : S4096x64x128.Idx) 1).val = (j 1).val := by
    show win0_1.index t (1 : Fin 3) * 64 + 1 * (j 1).val = _; rw [e1]; omega
  have c2 : ((((cfg0.win 1).blk t).view.emb j : S4096x64x128.Idx) 2).val = (j 2).val := by
    show win0_1.index t (2 : Fin 3) * 128 + 1 * (j 2).val = _; rw [e2]; omega
  refine inhibit_block (iblk m c 0 t) (V m c main_v0 : S4096x64x128.Idx → EReal) j (((cfg0.win 1).blk t).view.emb j) (fun k => ?_) ?_
  · exact iblk_apply m c t _ _ c0 c1 rfl
  · exact iblk_apply m c t j _ c0 c1 c2

/-- An index of the output array is in point t's block iff each coordinate is in the block's range on its axis. -/
theorem mem_blk (t : Fin cfg0.N) (i : S4096x64x128.Idx) :
    i ∈ ((cfg0.win 1).blk t).view.set ↔ ∀ a : Fin 3, win0_1.index t a * S128x64x128.size a ≤ (i a).val ∧ (i a).val < win0_1.index t a * S128x64x128.size a + S128x64x128.size a := by
  show i ∈ ((View.whole main_v1).slice (win0_1.rect t)).set ↔ _
  rw [View.set_slice_whole, Rect.mem_set_unit]
  exact Iff.rfl

/-- Every index of the output array is in the block of the point its row falls in: row r is in block r / 128. -/
theorem cover (i : S4096x64x128.Idx) : ∃ t : Fin cfg0.N, (cfg0.win 1).flush t = true ∧ i ∈ ((cfg0.win 1).blk t).view.set := by
  have hi0 : (i 0).val < 4096 := (i 0).isLt
  have hi1 : (i 1).val < 64 := (i 1).isLt
  have hi2 : (i 2).val < 128 := (i 2).isLt
  have hN : cfg0.N = 32 := N_0
  let t : Fin cfg0.N := ⟨(i 0).val / 128, by omega⟩
  obtain ⟨-, -, -, e0, e1, e2⟩ := idx_facts t
  have ht : t.val = (i 0).val / 128 := rfl
  refine ⟨t, flush0_1 t, ?_⟩
  rw [mem_blk]
  intro a
  match a with
  | ⟨0, _⟩ => show win0_1.index t (0 : Fin 3) * 128 ≤ (i 0).val ∧ (i 0).val < win0_1.index t (0 : Fin 3) * 128 + 128; rw [e0, ht]; omega
  | ⟨1, _⟩ => show win0_1.index t (1 : Fin 3) * 64 ≤ (i 1).val ∧ (i 1).val < win0_1.index t (1 : Fin 3) * 64 + 64; rw [e1]; omega
  | ⟨2, _⟩ => show win0_1.index t (2 : Fin 3) * 128 ≤ (i 2).val ∧ (i 2).val < win0_1.index t (2 : Fin 3) * 128 + 128; rw [e2]; omega

/-- THE OUTPUT ARRAY after the region: the current of the regrouped argument. -/
theorem final (c : Dev nD) : (dats m 0 c).arrAt 1 cfg0.N = inhibit (rows := 4096) (spikes m c) := by
  rw [← V_main_v0 m c]
  exact (dats m 0 c).arrAt_eq_of_cover 1 (inhibit (rows := 4096) (V m c main_v0 : S4096x64x128.Idx → EReal)) (fun t _ => flushed_eq m c t) cover

/-- The program's result: the host line after the region flattens the output array. -/
abbrev result (c : Dev nD) : S4096x8192.Idx → EReal :=
  shapeCast S4096x8192 (inhibit (rows := 4096) (spikes m c)) Gen.shapeCasts_S4096x64x128_S4096x8192

/-- What the lines after the region leave in the result buffer. -/
theorem tail_eq (c : Dev nD) :
    (Pipeline.afterTail₀ cfgs (dats m) 0 (V0 m) [hostOps1] c main_v2 : S4096x8192.Idx → EReal) = result m c := by
  unfold Pipeline.afterTail₀
  show StableHlo.after hostOps1 _ (Proc.devRef .tc main_v2) = _
  after_results
  have hW : (Pipeline.withArrays (cfgs 0).spec c (V0 m c) (fun w => (dats m 0 c).arrAt w (cfgs 0).N) (Proc.devRef .tc main_v1)
      : S4096x64x128.Idx → EReal) = inhibit (rows := 4096) (spikes m c) :=
    (Pipeline.withArrays_arr spec0 launch0.win.arr_inj c _ _ 1).trans (final m c)
  rw [hW]
  rfl

/-- The run, read: the result buffer ends at the flattened current of the regrouped argument, the argument unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0) :=
  (θ_run defs _ _).mono (fun _ h c =>
      ⟨((h c).2 main_v2 (Pipeline.mem_restRefs_of main_v2 (by decide) (by decide))).trans (tail_eq m c),
       ((h c).2 main_arg0 (Pipeline.mem_restRefs_of main_arg0 (by decide) (by decide))).trans (W_main_arg0 m (dats m) c)⟩)
    (run_main m ρ)

end Cert.KernelIdeal.Hand

end
-- ==== Proof.RefInhibit.lean ====
/-
  The reference computes the inhibitory current of the spikes regrouped [4096, 64, 128].

  The reference regroups its [4096, 8192] argument as [4096, 64, 128], sums each group over its last axis (keeping it as a
  unit axis and spreading it back), subtracts the spikes, scales by ½, and flattens the result again. Read at an index
  (row, g, n), the spread group sum is 0 + Σ_k X (row, g, k): the reduce's initial value is the zero word, and the two
  broadcasts only re-name coordinates. So the value before the final flattening is `inhibit` of the regrouped argument.
-/
import proofs.«107259_j68161130987768_2_alg».proof.Proof.Gen.ReferenceIdeal.Read
import proofs.«107259_j68161130987768_2_alg».proof.Proof.Inhibit

noncomputable section

namespace Cert.ReferenceIdeal.RefValue

open Cert.ReferenceIdeal Cert.ReferenceIdeal.Gen Cert.ReferenceIdeal.Read
open Idealize.ShloMosaic Idealize.ShloMosaic.ValueIdx Cert.Inhibit

/-- Through the spread, the kept unit axis and the reduce, entry (row, g, n) reads the regrouped spikes at (row, g, k). -/
theorem group_idx (i : S4096x64x128.Idx) (k : Fin 128) :
    idx_main_v1 (idx_main_v2 (idx_main_v3 i)) k = ix3 (n0 := 4096) (n1 := 64) (n2 := 128) (i 0) (i 1) k :=
  funext fun a => Fin.ext (by match a with | ⟨0, _⟩ => rfl | ⟨1, _⟩ => rfl | ⟨2, _⟩ => rfl)

/-- Before the final flattening the reference holds the inhibitory current of the regrouped argument. -/
theorem current_eq (x0 : (⟨S4096x8192, .f32⟩ : BufTy).Contents (Elt Ideal)) :
    val_main_v6 (F := Ideal) x0 = inhibit (rows := 4096) (val_main_v0 (F := Ideal) x0) := by
  funext i
  rw [val_main_v6_apply, val_main_v4_apply, val_main_v3_apply, val_main_v2_apply, val_main_v1_apply, val_main_v5_apply,
    val_main_cst_0_apply, val_main_cst_apply]
  simp only [group_idx, Ideal.mulf_def, Ideal.subf_def, Ideal.ofBits_def, Ideal.ofBits_zero_f32, zero_add]
  rfl

/-- The reference's result: the argument regrouped, its inhibitory current, flattened. -/
theorem result_eq (x0 : (⟨S4096x8192, .f32⟩ : BufTy).Contents (Elt Ideal)) :
    val_main_v7 (F := Ideal) x0
      = shapeCast S4096x8192 (inhibit (rows := 4096) (shapeCast S4096x64x128 x0 shapeCasts_S4096x8192_S4096x64x128))
          shapeCasts_S4096x64x128_S4096x8192 := by
  unfold val_main_v7
  rw [current_eq]
  rfl

end Cert.ReferenceIdeal.RefValue

end
-- ==== Proof.lean ====
/- Within-group lateral inhibition, `(Σ_group spk − spk) · ½` over f32[4096, 8192] viewed as 64 groups of 128 neurons a row:
   a pipelined kernel over 32 blocks of 128 rows (the array regrouped [4096, 64, 128] before the call and flattened after
   it) against the same expression in jnp.

   Both programs compute ONE expression on the extended reals, `Cert.Inhibit.inhibit` of the regrouped argument, flattened:
   the kernel because a group lies inside one row, so block t of the current needs only block t of the spikes, and the 32
   blocks cover the array (Proof/KernelBlock.lean, Proof/KernelArray.lean); the reference because its reduce, keepdims and
   broadcast only re-name coordinates (Proof/RefInhibit.lean). The vector unit's add-reduction starts from its neutral
   word and the host's from the zero word, which is 0: the two sums are one. No algebraic law joins the two sides, so
   the precondition (finite inputs) is never opened. The idealization rewrote no operation, so `preserves` is `True`. -/
import proofs.«107259_j68161130987768_2_alg».proof.Defs
import proofs.«107259_j68161130987768_2_alg».proof.Proof.Gen.Kernel
import proofs.«107259_j68161130987768_2_alg».proof.Proof.Gen.Kernel.Skeleton
import proofs.«107259_j68161130987768_2_alg».proof.Proof.Gen.Kernel.Launch
import proofs.«107259_j68161130987768_2_alg».proof.Proof.Gen.Kernel.Points
import proofs.«107259_j68161130987768_2_alg».proof.Proof.Gen.Kernel.Frame
import proofs.«107259_j68161130987768_2_alg».proof.Proof.Gen.KernelIdeal
import proofs.«107259_j68161130987768_2_alg».proof.Proof.Gen.KernelIdeal.Skeleton
import proofs.«107259_j68161130987768_2_alg».proof.Proof.Gen.KernelIdeal.Launch
import proofs.«107259_j68161130987768_2_alg».proof.Proof.Gen.KernelIdeal.Points
import proofs.«107259_j68161130987768_2_alg».proof.Proof.Gen.KernelIdeal.Frame
import proofs.«107259_j68161130987768_2_alg».proof.Proof.Gen.ReferenceIdeal
import proofs.«107259_j68161130987768_2_alg».proof.Proof.Gen.ReferenceIdeal.Run
import proofs.«107259_j68161130987768_2_alg».proof.Proof.Gen.ReferenceIdeal.Read
import proofs.«107259_j68161130987768_2_alg».proof.Proof.Gen.Pre_finite_inputs
import proofs.«107259_j68161130987768_2_alg».proof.Proof.KernelArray
import proofs.«107259_j68161130987768_2_alg».proof.Proof.RefInhibit
import Idealize.ShloMosaic.Adequacy
import Idealize.ShloMosaic.Init

noncomputable section

namespace Cert.Proof

open Idealize.ShloMosaic Idealize.SL.Sem

/-- The word-level kernel program runs and leaves its argument as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the argument, both programs end with the flattened inhibitory current of the regrouped
    argument in their result buffers. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v7_eq, Cert.ReferenceIdeal.RefValue.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
